-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x8 : Shape := ⟨3, ![16, 1024, 8]⟩
abbrev S_ : Shape := ⟨0, ![]⟩

class Facts : Prop where
  bcast_S_S16x1024x8 : S_.BroadcastsInDim S16x1024x8 (![] : Fin 0 → Fin S16x1024x8.rank)
  reducesTo_S16x1024x8_S_d0_1_2 : S16x1024x8.ReducesTo [0, 1, 2] S_
  h_S_ : 0 < S_.numel

variable [Facts]

def fn {F : FTy → Type} [FloatOps F] (main_arg0 : FVec F S16x1024x8 .f32) : IVec S_ 1 :=
  let main_v0 : FVec F S16x1024x8 .f32 := Host.absf main_arg0
  let main_cst : FVec F S_ .f32 := constant S_ .f32 0x7F800000#32
  let main_v1 : FVec F S16x1024x8 .f32 := broadcastInDim S16x1024x8 ![] bcast_S_S16x1024x8 main_cst
  let main_v2 : IVec S16x1024x8 1 := cmpf .olt main_v0 main_v1
  let main_c : IVec S_ 1 := constantI S_ 1 1#1
  let main_v3 : IVec S_ 1 := (fun x v => Host.reduce IntOp.andi x v reducesTo_S16x1024x8_S_d0_1_2 h_S_) main_v2 main_c
  main_v3
-- ==== Kernel.lean ====
abbrev S16x1024x8 : Shape := ⟨3, ![16, 1024, 8]⟩
abbrev S16x8x1024 : Shape := ⟨3, ![16, 8, 1024]⟩
abbrev S1x8x1024 : Shape := ⟨3, ![1, 8, 1024]⟩
abbrev S8x1024 : Shape := ⟨2, ![8, 1024]⟩
abbrev S1x8x128 : Shape := ⟨3, ![1, 8, 128]⟩
abbrev S8x128 : Shape := ⟨2, ![8, 128]⟩
abbrev S8x128x1 : Shape := ⟨3, ![8, 128, 1]⟩
abbrev S8x1x128 : Shape := ⟨3, ![8, 1, 128]⟩
abbrev S8x128x128 : Shape := ⟨3, ![8, 128, 128]⟩

abbrev nBuf : Space → Nat
  | .hbm => 4
  | .vmem => 5
  | .smem => 0
  | _ => 0

abbrev bufTy : (tb : Table) → Fin (tcTables nBuf tb) → BufTy
  | .hbm, ⟨0, _⟩ => ⟨S16x1024x8, .f32⟩
  | .hbm, ⟨1, _⟩ => ⟨S16x8x1024, .f32⟩
  | .hbm, ⟨2, _⟩ => ⟨S16x8x1024, .f32⟩
  | .hbm, ⟨3, _⟩ => ⟨S16x1024x8, .f32⟩
  | .local _ .vmem, ⟨0, _⟩ => ⟨S1x8x1024, .f32⟩
  | .local _ .vmem, ⟨1, _⟩ => ⟨S1x8x1024, .f32⟩
  | .local _ .vmem, ⟨2, _⟩ => ⟨S1x8x1024, .f32⟩
  | .local _ .vmem, ⟨3, _⟩ => ⟨S1x8x1024, .f32⟩
  | .local _ .vmem, ⟨4, _⟩ => ⟨S8x1024, .f32⟩
  | _, _ => ⟨S16x1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S16x1024x8_S16x8x1024_0_2_1 : S16x1024x8.Transposes [0, 2, 1] S16x8x1024
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S1x8x1024_S1x8x128_0_0_0 : ∀ a, (![0, 0, 0] : Fin 3 → Nat) a + S1x8x128.size a ≤ S1x8x1024.size a
  h_S1x8x128 : 0 < S1x8x128.numel
  shapeCasts_S1x8x128_S8x128 : S1x8x128.ShapeCasts S8x128
  shapeCasts_S8x128_S8x128x1 : S8x128.ShapeCasts S8x128x1
  shapeCasts_S8x128_S8x1x128 : S8x128.ShapeCasts S8x1x128
  broadcasts_S8x128x1_S8x128x128 : S8x128x1.Broadcasts S8x128x128
  broadcasts_S8x1x128_S8x128x128 : S8x1x128.Broadcasts S8x128x128
  inb_S8x1024_S8x128_0_0 : ∀ a, (![0, 0] : Fin 2 → Nat) a + S8x128.size a ≤ S8x1024.size a
  h_S8x128 : 0 < S8x128.numel
  reduces_S8x128x128_S8x128 : S8x128x128.Reduces [2] S8x128
  shapeCasts_S8x128_S8x128 : S8x128.ShapeCasts S8x128
  inb_S1x8x1024_S1x8x128_0_0_128 : ∀ a, (![0, 0, 128] : Fin 3 → Nat) a + S1x8x128.size a ≤ S1x8x1024.size a
  inb_S8x1024_S8x128_0_128 : ∀ a, (![0, 128] : Fin 2 → Nat) a + S8x128.size a ≤ S8x1024.size a
  reduces_S8x128x128_S8x128_2 : S8x128x128.Reduces [1] S8x128
  inb_S1x8x1024_S1x8x128_0_0_256 : ∀ a, (![0, 0, 256] : Fin 3 → Nat) a + S1x8x128.size a ≤ S1x8x1024.size a
  inb_S8x1024_S8x128_0_256 : ∀ a, (![0, 256] : Fin 2 → Nat) a + S8x128.size a ≤ S8x1024.size a
  inb_S1x8x1024_S1x8x128_0_0_384 : ∀ a, (![0, 0, 384] : Fin 3 → Nat) a + S1x8x128.size a ≤ S1x8x1024.size a
  inb_S8x1024_S8x128_0_384 : ∀ a, (![0, 384] : Fin 2 → Nat) a + S8x128.size a ≤ S8x1024.size a
  inb_S1x8x1024_S1x8x128_0_0_512 : ∀ a, (![0, 0, 512] : Fin 3 → Nat) a + S1x8x128.size a ≤ S1x8x1024.size a
  inb_S8x1024_S8x128_0_512 : ∀ a, (![0, 512] : Fin 2 → Nat) a + S8x128.size a ≤ S8x1024.size a
  inb_S1x8x1024_S1x8x128_0_0_640 : ∀ a, (![0, 0, 640] : Fin 3 → Nat) a + S1x8x128.size a ≤ S1x8x1024.size a
  inb_S8x1024_S8x128_0_640 : ∀ a, (![0, 640] : Fin 2 → Nat) a + S8x128.size a ≤ S8x1024.size a
  inb_S1x8x1024_S1x8x128_0_0_768 : ∀ a, (![0, 0, 768] : Fin 3 → Nat) a + S1x8x128.size a ≤ S1x8x1024.size a
  inb_S8x1024_S8x128_0_768 : ∀ a, (![0, 768] : Fin 2 → Nat) a + S8x128.size a ≤ S8x1024.size a
  inb_S1x8x1024_S1x8x128_0_0_896 : ∀ a, (![0, 0, 896] : Fin 3 → Nat) a + S1x8x128.size a ≤ S1x8x1024.size a
  inb_S8x1024_S8x128_0_896 : ∀ a, (![0, 896] : Fin 2 → Nat) a + S8x128.size a ≤ S8x1024.size a
  inb_S1x8x1024_S1x8x1024_0_0_0 : ∀ a, (![0, 0, 0] : Fin 3 → Nat) a + S1x8x1024.size a ≤ S1x8x1024.size a
  h_S1x8x1024 : 0 < S1x8x1024.numel
  shapeCasts_S1x8x1024_S8x1024 : S1x8x1024.ShapeCasts S8x1024
  shapeCasts_S8x1024_S1x8x1024 : S8x1024.ShapeCasts S1x8x1024
  transposes_S16x8x1024_S16x1024x8_0_2_1 : S16x8x1024.Transposes [0, 2, 1] S16x1024x8
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x1024.size a ≤ S16x8x1024.size a
  hwx0_0 : ∀ i : grid0.Coords, EltTy.bits .f32 = 32 ∨ (Rect.block (s := S16x8x1024) S1x8x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x1024.size a ≤ S16x8x1024.size a
  hwx0_1 : ∀ i : grid0.Coords, EltTy.bits .f32 = 32 ∨ (Rect.block (s := S16x8x1024) S1x8x1024.size (cc0_transform_1 i) (hinb0_1 i)).WholeWords (EltTy.packing .f32)

variable [Facts₀]

abbrev win0_0 : Pipeline.Window sig grid0 :=
  Pipeline.Window.ofSpec (Memref.whole main_v0) S1x8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x1024x8 : Shape := ⟨3, ![16, 1024, 8]⟩
abbrev S16x1024x1x8 : Shape := ⟨4, ![16, 1024, 1, 8]⟩
abbrev S16x1x1024x8 : Shape := ⟨4, ![16, 1, 1024, 8]⟩
abbrev S16x1024x1024x8 : Shape := ⟨4, ![16, 1024, 1024, 8]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16x1024x8, .f32⟩
  | .hbm, ⟨1, _⟩ => ⟨S16x1024x1x8, .f32⟩
  | .hbm, ⟨2, _⟩ => ⟨S16x1x1024x8, .f32⟩
  | .hbm, ⟨3, _⟩ => ⟨S16x1024x1024x8, .f32⟩
  | .hbm, ⟨4, _⟩ => ⟨S16x1024x1024x8, .f32⟩
  | .hbm, ⟨5, _⟩ => ⟨S16x1024x1024x8, .f32⟩
  | .hbm, ⟨6, _⟩ => ⟨S_, .f32⟩
  | .hbm, ⟨7, _⟩ => ⟨S16x1024x1024x8, .f32⟩
  | .hbm, ⟨8, _⟩ => ⟨S16x1024x1024x8, .f32⟩
  | .hbm, ⟨9, _⟩ => ⟨S16x1024x1024x8, .f32⟩
  | .hbm, ⟨10, _⟩ => ⟨S16x1024x1024x8, .f32⟩
  | .hbm, ⟨11, _⟩ => ⟨S_, .f32⟩
  | .hbm, ⟨12, _⟩ => ⟨S16x1024x1024x8, .f32⟩
  | .hbm, ⟨13, _⟩ => ⟨S16x1024x1024x8, .f32⟩
  | .hbm, ⟨14, _⟩ => ⟨S_, .f32⟩
  | .hbm, ⟨15, _⟩ => ⟨S16x1024x1024x8, .f32⟩
  | .hbm, ⟨16, _⟩ => ⟨S16x1024x1024x8, .f32⟩
  | .hbm, ⟨17, _⟩ => ⟨S_, .f32⟩
  | .hbm, ⟨18, _⟩ => ⟨S16x1024x8, .f32⟩
  | .hbm, ⟨19, _⟩ => ⟨S_, .f32⟩
  | .hbm, ⟨20, _⟩ => ⟨S16x1024x8, .f32⟩
  | .hbm, ⟨21, _⟩ => ⟨S16x1024x8, .f32⟩
  | _, _ => ⟨S16x1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S16x1024x8_S16x1024x1x8_0_1_3 : S16x1024x8.BroadcastsInDim S16x1024x1x8 (![0, 1, 3] : Fin 3 → Fin S16x1024x1x8.rank)
  bcast_S16x1024x8_S16x1x1024x8_0_2_3 : S16x1024x8.BroadcastsInDim S16x1x1024x8 (![0, 2, 3] : Fin 3 → Fin S16x1x1024x8.rank)
  bcast_S16x1024x1x8_S16x1024x1024x8_0_1_2_3 : S16x1024x1x8.BroadcastsInDim S16x1024x1024x8 (![0, 1, 2, 3] : Fin 4 → Fin S16x1024x1024x8.rank)
  bcast_S16x1x1024x8_S16x1024x1024x8_0_1_2_3 : S16x1x1024x8.BroadcastsInDim S16x1024x1024x8 (![0, 1, 2, 3] : Fin 4 → Fin S16x1024x1024x8.rank)
  bcast_S_S16x1024x1024x8 : S_.BroadcastsInDim S16x1024x1024x8 (![] : Fin 0 → Fin S16x1024x1024x8.rank)
  reducesTo_S16x1024x1024x8_S16x1024x8_d2 : S16x1024x1024x8.ReducesTo [2] S16x1024x8
  h_S_ : 0 < S_.numel
  bcast_S_S16x1024x8 : S_.BroadcastsInDim S16x1024x8 (![] : Fin 0 → Fin S16x1024x8.rank)

variable [Facts₀]

class Facts : Prop extends Facts₀ where

variable [Facts]
-- ==== Proof.SoftRankSpec.lean ====
/-
  The mathematics of the soft rank, free of any program.

  For a row `x` of reals the soft rank of entry `j` is `(1/N) · ∑ i, σ(x j − x i)` with the steep logistic
  `σ d = 1 / (1 + e^(−1000·d))`. Two spellings of `σ` meet here: the logistic itself and
  `½·tanh(500·d) + ½`; they are one function on the reals, and `1 − σ d = σ (−d)`, which lets a
  tile of pairwise values serve both its rows and (complemented) its columns.
  Everything is then lifted to the extended reals at real arguments.
-/
import Idealize.ShloMosaic.PureOps.Ideal
import Idealize.ShloMosaic.PureOps.Ideal.Laws

noncomputable section

namespace Cert.SoftRank

open Idealize.ShloMosaic

/-- The steep logistic `σ d = 1 / (1 + e^(−1000·d))`. -/
def logis (d : ℝ) : ℝ := 1 / (1 + Real.exp (-(1000 * d)))

/-- `½·tanh(500·d) + ½` is the logistic of `1000·d`: with `a = e^(500 d)`, both are `a / (a + a⁻¹)`. -/
theorem half_tanh (d : ℝ) : (1 / 2 : ℝ) * Real.tanh (500 * d) + 1 / 2 = logis d := by
  unfold logis
  have h1 : Real.exp (-(1000 * d)) = (Real.exp (500 * d))⁻¹ * (Real.exp (500 * d))⁻¹ := by
    rw [← Real.exp_neg, ← Real.exp_add]; congr 1; ring
  have hp : 0 < Real.exp (500 * d) := Real.exp_pos _
  rw [Real.tanh_eq, Real.exp_neg, h1]
  field_simp
  ring

/-- The complement of the logistic is the logistic of the opposite difference. -/
theorem one_sub_logis (d : ℝ) : 1 - logis d = logis (-d) := by
  unfold logis
  have h1 : Real.exp (-(1000 * d)) = (Real.exp (1000 * d))⁻¹ := Real.exp_neg _
  have h2 : -(1000 * -d) = 1000 * d := by ring
  have hp : 0 < Real.exp (1000 * d) := Real.exp_pos _
  rw [h2, h1]
  field_simp
  ring

/-- A finite sum of reals, coerced, is the sum of the coercions. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-! ## The constants the two programs spell -/

theorem ofBits_half : Ideal.ofBits .f32 0x3F000000#32 = ((1 / 2 : ℝ) : EReal) := by
  simp [Ideal.ofBits, Ideal.ieee, -EReal.coe_mul]; norm_num
theorem ofBits_500 : Ideal.ofBits .f32 0x43FA0000#32 = ((500 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num
theorem ofBits_inv1024 : Ideal.ofBits .f32 0x3A800000#32 = ((1 / 1024 : ℝ) : EReal) := by
  simp [Ideal.ofBits, Ideal.ieee, -EReal.coe_mul]; norm_num
theorem ofBits_1000 : Ideal.ofBits .f32 0x447A0000#32 = ((1000 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num

/-! ## The two spellings at real arguments, on the extended reals -/

/-- The hyperbolic-tangent spelling of one pairwise value, on the extended reals. -/
def tanhForm (u w : EReal) : EReal :=
  Ideal.ofBits .f32 0x3F000000#32 * Ideal.tanh (Ideal.ofBits .f32 0x43FA0000#32 * (u - w)) + Ideal.ofBits .f32 0x3F000000#32

/-- The logistic spelling of one pairwise value, on the extended reals. -/
def expForm (u w : EReal) : EReal :=
  Ideal.div (Ideal.ofBits .f32 0x3F800000#32)
    (Ideal.ofBits .f32 0x3F800000#32 + Ideal.exp (-(Ideal.ofBits .f32 0x447A0000#32 * (u - w))))

theorem tanhForm_coe (u w : ℝ) : tanhForm (u : EReal) (w : EReal) = ((logis (u - w) : ℝ) : EReal) := by
  unfold tanhForm
  rw [ofBits_half, ofBits_500, ← EReal.coe_sub, ← EReal.coe_mul]
  show ((1 / 2 : ℝ) : EReal) * ((Real.tanh (500 * (u - w)) : ℝ) : EReal) + ((1 / 2 : ℝ) : EReal) = _
  rw [← EReal.coe_mul, ← EReal.coe_add, half_tanh]

theorem expForm_coe (u w : ℝ) : expForm (u : EReal) (w : EReal) = ((logis (u - w) : ℝ) : EReal) := by
  unfold expForm
  rw [ofBits_one, ofBits_1000, ← EReal.coe_sub, ← EReal.coe_mul, ← EReal.coe_neg]
  show Ideal.div ((1 : ℝ) : EReal) (((1 : ℝ) : EReal) + ((Real.exp (-(1000 * (u - w))) : ℝ) : EReal)) = _
  have hpos : (1 + Real.exp (-(1000 * (u - w))) : ℝ) ≠ 0 := by
    have := Real.exp_pos (-(1000 * (u - w))); linarith
  rw [← EReal.coe_add, Ideal.div_coe hpos, ← EReal.coe_mul, one_mul]
  rfl

end Cert.SoftRank

end
-- ==== Proof.LibPairLayout.lean ====
/-
  Layout steps of a pairwise (outer) difference, read at an index, general in the extents:
  a matrix `[a, b]` recast as a stack of columns `[a, b, 1]` or of rows `[a, 1, b]`, and each of those
  broadcast over the missing axis to `[a, b, c]` (columns) or `[a, c, b]`-shaped `[a, b, c]` (rows).
-/
import Idealize.ShloMosaic.Lib.ValueIdx
import Idealize.ShloMosaic.Lib.Pipeline.Value

namespace Cert.PairLayout

open Idealize.ShloMosaic Idealize.ShloMosaic.ValueIdx

variable {α : Type}

/-- An `[a, b]` matrix recast to `[a, b, 1]` reads, at `(i, j, u)`, the matrix at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` matrix recast to `[a, 1, b]` reads, at `(i, u, j)`, the matrix at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A stack of columns `[a, b, 1]` broadcast to `[a, b, c]` reads, at `(i, j, k)`, the column entry `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A stack of rows `[a, 1, c]` broadcast to `[a, b, c]` reads, at `(i, j, k)`, the row entry `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Cert.PairLayout
-- ==== Proof.TileOps.lean ====
/-
  The four vector computations the kernel repeats, read at an index on the extended reals.
  A tile of pairwise values `s[f, p, q] = ½·tanh(500·(u[f,p] − w[f,q])) + ½` of two 128-wide column groups;
  an accumulator updated by the tile's row sums (`acc[f,p] + ∑ q, s[f,p,q]`); an accumulator updated by the
  complemented column sums (`acc[f,q] + (128 − ∑ p, s[f,p,q])`); and the tile of a group against itself with
  its row sums added. The generated payload definitions spell these with the same operations wherever the body
  repeats them, so each is stated once, for the first occurrence.
-/
import proofs.«106836_j17300128268842_2_alg».proof.Proof.Gen.KernelIdeal.Skeleton
import proofs.«106836_j17300128268842_2_alg».proof.Proof.SoftRankSpec
import proofs.«106836_j17300128268842_2_alg».proof.Proof.LibPairLayout
import Idealize.ShloMosaic.Lib.ValueLayout
import Idealize.ShloMosaic.PureOps.Ideal.Laws

noncomputable section

namespace Cert.KernelIdeal.Tile

open Idealize.ShloMosaic Idealize.ShloMosaic.ValueIdx
open Cert.KernelIdeal Cert.KernelIdeal.Gen Cert.KernelIdeal.Facts₀ Cert.SoftRank Cert.PairLayout

theorem tanh_apply {s : Shape} {φ : FTy} (a : FVec Ideal s φ) (i : s.Idx) : tanh a i = Ideal.tanh (a i) := rfl

/-- The tile of pairwise values at `(f, p, q)`: the tanh spelling of the row group's entry `(f, p)` against the
    column group's entry `(f, q)`. -/
theorem pairTile_apply (xj xi : Vec Ideal S1x8x128 .f32) (f : Fin 8) (p q : Fin 128) :
    k0_pay6 (F := Ideal) xj xi (ix3 f p q) = tanhForm (xj (ix3 (0 : Fin 1) f p)) (xi (ix3 (0 : Fin 1) f q)) := by
  unfold k0_pay6 k0_pay4 k0_pay3 tanhForm
  simp only [addf_apply, mulf_apply, subf_apply, broadcast_apply, tanh_apply]
  rw [broadcastTo_ab1_abc_apply, broadcastTo_a1c_abc_apply, shapeCast_ab_ab1_apply, shapeCast_ab_a1b_apply,
    shapeCast_1ab_ab_apply, shapeCast_1ab_ab_apply]
  rfl

/-- The sum over the last axis of an `[8, 128, 128]` tile, at `(f, p)`. -/
theorem sumLast_apply (s : FVec Ideal S8x128x128 .f32) (h : S8x128x128.Reduces [2] S8x128)
    (hφ : FKind.Formats .f32) (hacc : (0x00000000#32 : BitVec 32) = FKind.add.neutral .f32 hφ) (f : Fin 8) (p : Fin 128) :
    multiReduction .add [2] S8x128 s 0x00000000#32 h hφ hacc (ix2 f p) = ∑ q : Fin 128, s (ix3 f p q) := by
  refine (Ideal.multiReduction_add_single s _ h hφ hacc (ix2 f p)).trans ?_
  refine Finset.sum_congr rfl fun q _ => congrArg s (funext fun a => Fin.ext ?_)
  match a with
  | ⟨0, _⟩ => rfl
  | ⟨1, _⟩ => rfl
  | ⟨2, _⟩ => rfl

/-- The sum over the middle axis of an `[8, 128, 128]` tile, at `(f, q)`. -/
theorem sumMid_apply (s : FVec Ideal S8x128x128 .f32) (h : S8x128x128.Reduces [1] S8x128)
    (hφ : FKind.Formats .f32) (hacc : (0x00000000#32 : BitVec 32) = FKind.add.neutral .f32 hφ) (f : Fin 8) (q : Fin 128) :
    multiReduction .add [1] S8x128 s 0x00000000#32 h hφ hacc (ix2 f q) = ∑ p : Fin 128, s (ix3 f p q) := by
  refine (Ideal.multiReduction_add_single s _ h hφ hacc (ix2 f q)).trans ?_
  refine Finset.sum_congr rfl fun p _ => congrArg s (funext fun a => Fin.ext ?_)
  match a with
  | ⟨0, _⟩ => rfl
  | ⟨1, _⟩ => rfl
  | ⟨2, _⟩ => rfl

/-- An accumulator updated by a tile's row sums, at `(f, p)`. -/
theorem rowAdd_apply (s : FVec Ideal S8x128x128 .f32) (acc : Vec Ideal S8x128 .f32) (f : Fin 8) (p : Fin 128) :
    k0_pay7 (F := Ideal) s acc (ix2 f p) = acc (ix2 f p) + ∑ q : Fin 128, s (ix3 f p q) := by
  unfold k0_pay7
  rw [shapeCast_self]
  exact congrArg (acc (ix2 f p) + ·) (sumLast_apply s _ _ _ f p)

/-- An accumulator updated by a tile's complemented column sums, at `(f, q)`. -/
theorem colAdd_apply (s : FVec Ideal S8x128x128 .f32) (acc : Vec Ideal S8x128 .f32) (f : Fin 8) (q : Fin 128) :
    k0_pay8 (F := Ideal) s acc (ix2 f q)
      = acc (ix2 f q) + (Ideal.ofBits .f32 0x43000000#32 - ∑ p : Fin 128, s (ix3 f p q)) := by
  unfold k0_pay8
  rw [shapeCast_self]
  exact congrArg (fun z => acc (ix2 f q) + (Ideal.ofBits .f32 0x43000000#32 - z)) (sumMid_apply s _ _ _ f q)

/-- The zero fill, at any index. -/
theorem zeroFill_apply (i : S8x1024.Idx) : k0_pay2 (F := Ideal) i = 0 := by
  unfold k0_pay2
  rw [shapeCast_self]
  exact Ideal.ofBits_zero_f32

/-- The final scaling by `1/1024` and the recast to a one-row stack, at `(0, f, n)`. -/
theorem scaled_apply (acc : Vec Ideal S8x1024 .f32) (u : Fin 1) (f : Fin 8) (n : Fin 1024) :
    k0_pay1 (F := Ideal) (k0_pay125 acc) (ix3 u f n) = acc (ix2 f n) * Ideal.ofBits .f32 0x3A800000#32 := by
  unfold k0_pay1 k0_pay125
  rw [shapeCast_ab_1ab_apply]
  rfl

end Cert.KernelIdeal.Tile

end
-- ==== Proof.ScratchInv.lean ====
/-
  What the accumulator holds between two stores.

  The accumulator is an `[8, 1024]` buffer, read and written one 128-column group (a tile) at a time. Write
  `x f n` for the input row `f` at column `n` (a real number). After some of the updates, column group `T` holds, at
  `(f, 128·T + p)`, the partial soft-rank sum
      `∑ U < cnt T, ∑ q < 128, σ(x f (128·T + p) − x f (128·U + q))`:
  the groups `U = 0, 1, …` it has met so far, in that order. The zero fill establishes this with every count 0; an
  update of group `T` by the row sums of the tile (T against U), or by the complemented column sums of the tile
  (U against T), adds group `U`'s term when `cnt T = U` (the complement of `σ(d)` is `σ(−d)`), and leaves every
  other group as it was.
-/
import proofs.«106836_j17300128268842_2_alg».proof.Proof.TileOps
import Idealize.ShloMosaic.Lib.Pipeline.FrameBody
import Idealize.ShloMosaic.Lib.Pipeline.Value

noncomputable section

namespace Cert.KernelIdeal.Scratch

open Idealize.ShloMosaic Idealize.ShloMosaic.ValueIdx
open Cert.KernelIdeal Cert.KernelIdeal.Gen Cert.KernelIdeal.Facts₀ Cert.SoftRank Cert.KernelIdeal.Tile

/-- Row `f` of the one-row stack at column `n` (zero beyond the last column, never read there). -/
def xv (xr : S1x8x1024.Idx → ℝ) (f : Fin 8) (n : ℕ) : ℝ :=
  if h : n < 1024 then xr (ix3 (0 : Fin 1) f ⟨n, h⟩) else 0

/-- The partial soft-rank sum of column `128·T + p` over the first `c` column groups. -/
def part (xr : S1x8x1024.Idx → ℝ) (T c : ℕ) (f : Fin 8) (p : Fin 128) : ℝ :=
  ∑ U ∈ Finset.range c, ∑ q : Fin 128, logis (xv xr f (128 * T + p.val) - xv xr f (128 * U + q.val))

/-- The invariant: every column group holds its partial sum, `cnt` saying how many groups each has met. -/
def Inv (xr : S1x8x1024.Idx → ℝ) (L : List (View.Piece (Elt Ideal) S8x1024 .f32)) (cnt : Fin 8 → ℕ) : Prop :=
  ∀ (T : Fin 8) (f : Fin 8) (p : Fin 128),
    View.canon L (ix2 f (⟨128 * T.val + p.val, by omega⟩ : Fin 1024)) = ((part xr T.val (cnt T) f p : ℝ) : EReal)

/-! ## A column group's rectangle -/

theorem tile_emb (o : ℕ) (inb : ∀ a, (![0, o] : Fin 2 → ℕ) a + S8x128.size a ≤ S8x1024.size a) (f : Fin 8) (p : Fin 128)
    (h : o + p.val < 1024) :
    (Rect.unit (s := S8x1024) ![0, o] S8x128.size inb).emb (ix2 f p) = ix2 f (⟨o + p.val, h⟩ : Fin 1024) := by
  funext a
  apply Fin.ext
  match a with
  | ⟨0, _⟩ => show 0 + 1 * f.val = f.val; omega
  | ⟨1, _⟩ => show o + 1 * p.val = o + p.val; omega

/-- Inside the last store's column group the contents are its payload; -/
theorem canon_tile_hit (o : ℕ) (inb : ∀ a, (![0, o] : Fin 2 → ℕ) a + S8x128.size a ≤ S8x1024.size a)
    (w : S8x128.Idx → Elt Ideal .f32) (L : List (View.Piece (Elt Ideal) S8x1024 .f32)) (f : Fin 8) (p : Fin 128)
    (h : o + p.val < 1024) :
    View.canon (⟨Rect.unit (s := S8x1024) ![0, o] S8x128.size inb, w⟩ :: L) (ix2 f (⟨o + p.val, h⟩ : Fin 1024)) = w (ix2 f p) := by
  rw [← tile_emb o inb f p h]
  exact View.canon_cons_emb (Rect.unit (s := S8x1024) ![0, o] S8x128.size inb) w L (ix2 f p)

/-- outside it, what the earlier stores left. -/
theorem canon_tile_miss (o : ℕ) (inb : ∀ a, (![0, o] : Fin 2 → ℕ) a + S8x128.size a ≤ S8x1024.size a)
    (w : S8x128.Idx → Elt Ideal .f32) (L : List (View.Piece (Elt Ideal) S8x1024 .f32)) (f : Fin 8) (n : Fin 1024)
    (hn : n.val < o ∨ o + 128 ≤ n.val) :
    View.canon (⟨Rect.unit (s := S8x1024) ![0, o] S8x128.size inb, w⟩ :: L) (ix2 f n) = View.canon L (ix2 f n) := by
  refine View.canon_cons_of_not_mem _ L ?_
  rw [Rect.mem_set_unit]
  intro hm
  have h1 := hm (1 : Fin 2)
  have e1 : ((ix2 f n : S8x1024.Idx) (1 : Fin 2)).val = n.val := rfl
  have e2 : (![0, o] : Fin 2 → ℕ) (1 : Fin 2) = o := rfl
  have e3 : S8x128.size (1 : Fin 2) = 128 := rfl
  rw [e1, e2, e3] at h1
  omega

/-- A load of a column group after the stores `L` reads their contents there. -/
theorem readCov_tile {sig : RefSig} {κ : Kind} {sp : Space} (v : View sig κ sp S8x1024 .f32) (o : ℕ)
    (inb : ∀ a, (![0, o] : Fin 2 → ℕ) a + S8x128.size a ≤ S8x1024.size a)
    (L : List (View.Piece (Elt Ideal) S8x1024 .f32)) (f : Fin 8) (p : Fin 128) (h : o + p.val < 1024) :
    v.readCov L (Rect.unit (s := S8x1024) ![0, o] S8x128.size inb).toLoadRect (ix2 f p)
      = View.canon L (ix2 f (⟨o + p.val, h⟩ : Fin 1024)) := by
  rw [View.readCov_eq_canon']
  exact congrArg (View.canon L) (tile_emb o inb f p h)

/-! ## A column group of the input block -/

theorem xload_apply {sig : RefSig} (a1 : Memref sig .tc .vmem S1x8x1024 .f32) (h1 : a1.IsWhole)
    (x0 : Vec Ideal S1x8x1024 .f32) (xr : S1x8x1024.Idx → ℝ) (hx : ∀ i, x0 i = ((xr i : ℝ) : EReal))
    (o : ℕ) (inb : ∀ a, (![0, 0, o] : Fin 3 → ℕ) a + S1x8x128.size a ≤ S1x8x1024.size a) (f : Fin 8) (p : Fin 128) :
    View.readAt (Elt Ideal) a1.view (Rect.unit (s := S1x8x1024) ![0, 0, o] S1x8x128.size inb).toLoadRect (h1.unread x0)
        (ix3 (0 : Fin 1) f p) = ((xv xr f (o + p.val) : ℝ) : EReal) := by
  have h : o + p.val < 1024 := by
    have hb := inb (2 : Fin 3)
    have e1 : (![0, 0, o] : Fin 3 → ℕ) (2 : Fin 3) = o := rfl
    have e2 : S1x8x128.size (2 : Fin 3) = 128 := rfl
    have e3 : S1x8x1024.size (2 : Fin 3) = 1024 := rfl
    rw [e1, e2, e3] at hb
    have := p.isLt
    omega
  rw [View.readAt_eq_ld, h1.read_unread]
  show x0 ((Rect.unit (s := S1x8x1024) ![0, 0, o] S1x8x128.size inb).idx (ix3 (0 : Fin 1) f p)) = _
  rw [hx]
  unfold xv
  rw [dif_pos h]
  refine congrArg (fun i => ((xr i : ℝ) : EReal)) (funext fun a => Fin.ext ?_)
  match a with
  | ⟨0, _⟩ => show 0 + 1 * 0 = 0; omega
  | ⟨1, _⟩ => show 0 + 1 * f.val = f.val; omega
  | ⟨2, _⟩ => show o + 1 * p.val = o + p.val; omega

/-- The complemented sum: `128 − ∑ p, σ(d p) = ∑ p, σ(−d p)`. -/
theorem compl_sum (g : Fin 128 → ℝ) : (128 : ℝ) - ∑ p : Fin 128, logis (g p) = ∑ p : Fin 128, logis (-(g p)) := by
  simp only [← one_sub_logis, Finset.sum_sub_distrib, Finset.sum_const, Finset.card_univ, Fintype.card_fin]
  norm_num

/-! ## The steps -/

section Steps

variable (a1 : Memref sig .tc .vmem S1x8x1024 .f32) (h1 : a1.IsWhole) (a3 : Memref sig .tc .vmem S8x1024 .f32)
  (x0 : Vec Ideal S1x8x1024 .f32) (xr : S1x8x1024.Idx → ℝ) (hx : ∀ i, x0 i = ((xr i : ℝ) : EReal))

theorem hz2 : (![0, 0] : Fin 2 → ℕ) = fun _ => 0 := funext fun a => by fin_cases a <;> rfl

/-- After the zero fill no group has met any other. -/
theorem inv_zero {inb : ∀ a, (![0, 0] : Fin 2 → ℕ) a + S8x1024.size a ≤ S8x1024.size a} {cnt : Fin 8 → ℕ}
    (hc : ∀ T, cnt T = 0) :
    Inv xr [⟨Rect.unit (s := S8x1024) ![0, 0] S8x1024.size inb, k0_pay2 (F := Ideal)⟩] cnt := by
  intro T f p
  rw [View.canon_unit_zero hz2, zeroFill_apply, hc T]
  unfold part
  rw [Finset.range_zero, Finset.sum_empty, EReal.coe_zero]

include hx in
/-- Group `T` updated by the row sums of the tile (T against U), when `U` is the next group it has to meet. -/
theorem inv_row {L : List (View.Piece (Elt Ideal) S8x1024 .f32)} {cnt cnt' : Fin 8 → ℕ} (T U : Fin 8) {oT oU : ℕ}
    {inbS : ∀ a, (![0, oT] : Fin 2 → ℕ) a + S8x128.size a ≤ S8x1024.size a}
    {inbT : ∀ a, (![0, 0, oT] : Fin 3 → ℕ) a + S1x8x128.size a ≤ S1x8x1024.size a}
    {inbU : ∀ a, (![0, 0, oU] : Fin 3 → ℕ) a + S1x8x128.size a ≤ S1x8x1024.size a}
    (hL : Inv xr L cnt) (hoT : oT = 128 * T.val) (hoU : oU = 128 * U.val) (hU : cnt T = U.val)
    (hc' : ∀ T', cnt' T' = if T' = T then U.val + 1 else cnt T') :
    Inv xr (⟨Rect.unit (s := S8x1024) ![0, oT] S8x128.size inbS,
        k0_pay7 (F := Ideal)
          (k0_pay6 (View.readAt (Elt Ideal) a1.view (Rect.unit (s := S1x8x1024) ![0, 0, oT] S1x8x128.size inbT).toLoadRect (h1.unread x0))
                   (View.readAt (Elt Ideal) a1.view (Rect.unit (s := S1x8x1024) ![0, 0, oU] S1x8x128.size inbU).toLoadRect (h1.unread x0)))
          (a3.view.readCov L (Rect.unit (s := S8x1024) ![0, oT] S8x128.size inbS).toLoadRect)⟩ :: L) cnt' := by
  subst hoT hoU
  intro T' f p
  rw [hc' T']
  by_cases hT : T' = T
  · subst hT
    have hp := p.isLt
    rw [if_pos rfl, canon_tile_hit _ _ _ _ f p (by omega), rowAdd_apply, readCov_tile _ _ _ _ f p (by omega), hL T' f p, hU]
    simp only [pairTile_apply, xload_apply a1 h1 x0 xr hx, tanhForm_coe]
    rw [← coe_sum, ← EReal.coe_add]
    unfold part
    rw [Finset.sum_range_succ]
  · have hne : T'.val ≠ T.val := fun h => hT (Fin.ext h)
    have hp := p.isLt
    rw [if_neg hT, canon_tile_miss _ _ _ _ f _ (by
      show 128 * T'.val + p.val < 128 * T.val ∨ 128 * T.val + 128 ≤ 128 * T'.val + p.val
      omega)]
    exact hL T' f p

include hx in
/-- Group `T` updated by the complemented column sums of the tile (U against T), when `U` is the next group it
    has to meet: `128 − ∑ p, σ(x_U p − x_T q) = ∑ p, σ(x_T q − x_U p)`. -/
theorem inv_col {L : List (View.Piece (Elt Ideal) S8x1024 .f32)} {cnt cnt' : Fin 8 → ℕ} (T U : Fin 8) {oT oU : ℕ}
    {inbS : ∀ a, (![0, oT] : Fin 2 → ℕ) a + S8x128.size a ≤ S8x1024.size a}
    {inbT : ∀ a, (![0, 0, oT] : Fin 3 → ℕ) a + S1x8x128.size a ≤ S1x8x1024.size a}
    {inbU : ∀ a, (![0, 0, oU] : Fin 3 → ℕ) a + S1x8x128.size a ≤ S1x8x1024.size a}
    (hL : Inv xr L cnt) (hoT : oT = 128 * T.val) (hoU : oU = 128 * U.val) (hU : cnt T = U.val)
    (hc' : ∀ T', cnt' T' = if T' = T then U.val + 1 else cnt T') :
    Inv xr (⟨Rect.unit (s := S8x1024) ![0, oT] S8x128.size inbS,
        k0_pay8 (F := Ideal)
          (k0_pay6 (View.readAt (Elt Ideal) a1.view (Rect.unit (s := S1x8x1024) ![0, 0, oU] S1x8x128.size inbU).toLoadRect (h1.unread x0))
                   (View.readAt (Elt Ideal) a1.view (Rect.unit (s := S1x8x1024) ![0, 0, oT] S1x8x128.size inbT).toLoadRect (h1.unread x0)))
          (a3.view.readCov L (Rect.unit (s := S8x1024) ![0, oT] S8x128.size inbS).toLoadRect)⟩ :: L) cnt' := by
  subst hoT hoU
  intro T' f p
  rw [hc' T']
  by_cases hT : T' = T
  · subst hT
    have hp := p.isLt
    rw [if_pos rfl, canon_tile_hit _ _ _ _ f p (by omega), colAdd_apply, readCov_tile _ _ _ _ f p (by omega), hL T' f p, hU]
    simp only [pairTile_apply, xload_apply a1 h1 x0 xr hx, tanhForm_coe]
    rw [ofBits_128, ← coe_sum, ← EReal.coe_sub, ← EReal.coe_add, compl_sum]
    unfold part
    rw [Finset.sum_range_succ]
    simp only [neg_sub]
  · have hne : T'.val ≠ T.val := fun h => hT (Fin.ext h)
    have hp := p.isLt
    rw [if_neg hT, canon_tile_miss _ _ _ _ f _ (by
      show 128 * T'.val + p.val < 128 * T.val ∨ 128 * T.val + 128 ≤ 128 * T'.val + p.val
      omega)]
    exact hL T' f p

end Steps

end Cert.KernelIdeal.Scratch

end
-- ==== Proof.AccSteps.lean ====
/-
  The accumulator after each of its 65 stores, one store at a time.

  The body first fills the accumulator with zeros, then walks the pairs of column groups `j ≤ i` in order:
  for `j = i` the group's own tile, added by row sums; for `j < i` one tile, added to group `j` by its row sums
  and to group `i` by its complemented column sums. In this order group `T` meets the groups `0, 1, …, 7` one
  after the other (the groups before it through the complemented column sums, itself, then the groups after it
  through the row sums), so each store is one step of the invariant, and after the last store every group has met
  all eight. The vector after each step counts, per group, how many it has met.
-/
import proofs.«106836_j17300128268842_2_alg».proof.Proof.Gen.KernelIdeal.Frame.RunA
import proofs.«106836_j17300128268842_2_alg».proof.Proof.ScratchInv

set_option maxRecDepth 16384

noncomputable section

namespace Cert.KernelIdeal.Steps

open Idealize.ShloMosaic Idealize.ShloMosaic.ValueIdx
open Cert.KernelIdeal Cert.KernelIdeal.Gen Cert.KernelIdeal.Facts₀ Cert.KernelIdeal.Scratch

variable (c : Dev nD) (a1 : Memref sig .tc .vmem S1x8x1024 .f32) (h1 : a1.IsWhole) (a3 : Memref sig .tc .vmem S8x1024 .f32)
  (x0 : Vec Ideal S1x8x1024 .f32) (xr : S1x8x1024.Idx → ℝ) (hx : ∀ i, x0 i = ((xr i : ℝ) : EReal))

/-- The zero fill. -/
theorem s1 : Inv xr (kernelRun0_A.sl.HS0_1 (F := Ideal)) ![0, 0, 0, 0, 0, 0, 0, 0] :=
  inv_zero xr (by decide)

include hx in
theorem s2 : Inv xr (kernelRun0_A.sl.HS0_2 c a1 h1 a3 x0) ![1, 0, 0, 0, 0, 0, 0, 0] :=
  inv_row a1 h1 a3 x0 xr hx 0 0 (s1 xr) (by rfl) (by rfl) (by rfl) (by decide)

include hx in
theorem s3 : Inv xr (kernelRun0_A.sl.HS0_3 c a1 h1 a3 x0) ![2, 0, 0, 0, 0, 0, 0, 0] :=
  inv_row a1 h1 a3 x0 xr hx 0 1 (s2 c a1 h1 a3 x0 xr hx) (by rfl) (by rfl) (by rfl) (by decide)

include hx in
theorem s4 : Inv xr (kernelRun0_A.sl.HS0_4 c a1 h1 a3 x0) ![2, 1, 0, 0, 0, 0, 0, 0] :=
  inv_col a1 h1 a3 x0 xr hx 1 0 (s3 c a1 h1 a3 x0 xr hx) (by rfl) (by rfl) (by rfl) (by decide)

include hx in
theorem s5 : Inv xr (kernelRun0_A.sl.HS0_5 c a1 h1 a3 x0) ![3, 1, 0, 0, 0, 0, 0, 0] :=
  inv_row a1 h1 a3 x0 xr hx 0 2 (s4 c a1 h1 a3 x0 xr hx) (by rfl) (by rfl) (by rfl) (by decide)

include hx in
theorem s6 : Inv xr (kernelRun0_A.sl.HS0_6 c a1 h1 a3 x0) ![3, 1, 1, 0, 0, 0, 0, 0] :=
  inv_col a1 h1 a3 x0 xr hx 2 0 (s5 c a1 h1 a3 x0 xr hx) (by rfl) (by rfl) (by rfl) (by decide)

include hx in
theorem s7 : Inv xr (kernelRun0_A.sl.HS0_7 c a1 h1 a3 x0) ![4, 1, 1, 0, 0, 0, 0, 0] :=
  inv_row a1 h1 a3 x0 xr hx 0 3 (s6 c a1 h1 a3 x0 xr hx) (by rfl) (by rfl) (by rfl) (by decide)

include hx in
theorem s8 : Inv xr (kernelRun0_A.sl.HS0_8 c a1 h1 a3 x0) ![4, 1, 1, 1, 0, 0, 0, 0] :=
  inv_col a1 h1 a3 x0 xr hx 3 0 (s7 c a1 h1 a3 x0 xr hx) (by rfl) (by rfl) (by rfl) (by decide)

include hx in
theorem s9 : Inv xr (kernelRun0_A.sl.HS0_9 c a1 h1 a3 x0) ![5, 1, 1, 1, 0, 0, 0, 0] :=
  inv_row a1 h1 a3 x0 xr hx 0 4 (s8 c a1 h1 a3 x0 xr hx) (by rfl) (by rfl) (by rfl) (by decide)

include hx in
theorem s10 : Inv xr (kernelRun0_A.sl.HS0_10 c a1 h1 a3 x0) ![5, 1, 1, 1, 1, 0, 0, 0] :=
  inv_col a1 h1 a3 x0 xr hx 4 0 (s9 c a1 h1 a3 x0 xr hx) (by rfl) (by rfl) (by rfl) (by decide)

include hx in
theorem s11 : Inv xr (kernelRun0_A.sl.HS0_11 c a1 h1 a3 x0) ![6, 1, 1, 1, 1, 0, 0, 0] :=
  inv_row a1 h1 a3 x0 xr hx 0 5 (s10 c a1 h1 a3 x0 xr hx) (by rfl) (by rfl) (by rfl) (by decide)

include hx in
theorem s12 : Inv xr (kernelRun0_A.sl.HS0_12 c a1 h1 a3 x0) ![6, 1, 1, 1, 1, 1, 0, 0] :=
  inv_col a1 h1 a3 x0 xr hx 5 0 (s11 c a1 h1 a3 x0 xr hx) (by rfl) (by rfl) (by rfl) (by decide)

include hx in
theorem s13 : Inv xr (kernelRun0_A.sl.HS0_13 c a1 h1 a3 x0) ![7, 1, 1, 1, 1, 1, 0, 0] :=
  inv_row a1 h1 a3 x0 xr hx 0 6 (s12 c a1 h1 a3 x0 xr hx) (by rfl) (by rfl) (by rfl) (by decide)

include hx in
theorem s14 : Inv xr (kernelRun0_A.sl.HS0_14 c a1 h1 a3 x0) ![7, 1, 1, 1, 1, 1, 1, 0] :=
  inv_col a1 h1 a3 x0 xr hx 6 0 (s13 c a1 h1 a3 x0 xr hx) (by rfl) (by rfl) (by rfl) (by decide)

include hx in
theorem s15 : Inv xr (kernelRun0_A.sl.HS0_15 c a1 h1 a3 x0) ![8, 1, 1, 1, 1, 1, 1, 0] :=
  inv_row a1 h1 a3 x0 xr hx 0 7 (s14 c a1 h1 a3 x0 xr hx) (by rfl) (by rfl) (by rfl) (by decide)

include hx in
theorem s16 : Inv xr (kernelRun0_A.sl.HS0_16 c a1 h1 a3 x0) ![8, 1, 1, 1, 1, 1, 1, 1] :=
  inv_col a1 h1 a3 x0 xr hx 7 0 (s15 c a1 h1 a3 x0 xr hx) (by rfl) (by rfl) (by rfl) (by decide)

include hx in
theorem s17 : Inv xr (kernelRun0_A.sl.HS0_17 c a1 h1 a3 x0) ![8, 2, 1, 1, 1, 1, 1, 1] :=
  inv_row a1 h1 a3 x0 xr hx 1 1 (s16 c a1 h1 a3 x0 xr hx) (by rfl) (by rfl) (by rfl) (by decide)

include hx in
theorem s18 : Inv xr (kernelRun0_A.sl.HS0_18 c a1 h1 a3 x0) ![8, 3, 1, 1, 1, 1, 1, 1] :=
  inv_row a1 h1 a3 x0 xr hx 1 2 (s17 c a1 h1 a3 x0 xr hx) (by rfl) (by rfl) (by rfl) (by decide)

include hx in
theorem s19 : Inv xr (kernelRun0_A.sl.HS0_19 c a1 h1 a3 x0) ![8, 3, 2, 1, 1, 1, 1, 1] :=
  inv_col a1 h1 a3 x0 xr hx 2 1 (s18 c a1 h1 a3 x0 xr hx) (by rfl) (by rfl) (by rfl) (by decide)

include hx in
theorem s20 : Inv xr (kernelRun0_A.sl.HS0_20 c a1 h1 a3 x0) ![8, 4, 2, 1, 1, 1, 1, 1] :=
  inv_row a1 h1 a3 x0 xr hx 1 3 (s19 c a1 h1 a3 x0 xr hx) (by rfl) (by rfl) (by rfl) (by decide)

include hx in
theorem s21 : Inv xr (kernelRun0_A.sl.HS0_21 c a1 h1 a3 x0) ![8, 4, 2, 2, 1, 1, 1, 1] :=
  inv_col a1 h1 a3 x0 xr hx 3 1 (s20 c a1 h1 a3 x0 xr hx) (by rfl) (by rfl) (by rfl) (by decide)

include hx in
theorem s22 : Inv xr (kernelRun0_A.sl.HS0_22 c a1 h1 a3 x0) ![8, 5, 2, 2, 1, 1, 1, 1] :=
  inv_row a1 h1 a3 x0 xr hx 1 4 (s21 c a1 h1 a3 x0 xr hx) (by rfl) (by rfl) (by rfl) (by decide)

include hx in
theorem s23 : Inv xr (kernelRun0_A.sl.HS0_23 c a1 h1 a3 x0) ![8, 5, 2, 2, 2, 1, 1, 1] :=
  inv_col a1 h1 a3 x0 xr hx 4 1 (s22 c a1 h1 a3 x0 xr hx) (by rfl) (by rfl) (by rfl) (by decide)

include hx in
theorem s24 : Inv xr (kernelRun0_A.sl.HS0_24 c a1 h1 a3 x0) ![8, 6, 2, 2, 2, 1, 1, 1] :=
  inv_row a1 h1 a3 x0 xr hx 1 5 (s23 c a1 h1 a3 x0 xr hx) (by rfl) (by rfl) (by rfl) (by decide)

include hx in
theorem s25 : Inv xr (kernelRun0_A.sl.HS0_25 c a1 h1 a3 x0) ![8, 6, 2, 2, 2, 2, 1, 1] :=
  inv_col a1 h1 a3 x0 xr hx 5 1 (s24 c a1 h1 a3 x0 xr hx) (by rfl) (by rfl) (by rfl) (by decide)

include hx in
theorem s26 : Inv xr (kernelRun0_A.sl.HS0_26 c a1 h1 a3 x0) ![8, 7, 2, 2, 2, 2, 1, 1] :=
  inv_row a1 h1 a3 x0 xr hx 1 6 (s25 c a1 h1 a3 x0 xr hx) (by rfl) (by rfl) (by rfl) (by decide)

include hx in
theorem s27 : Inv xr (kernelRun0_A.sl.HS0_27 c a1 h1 a3 x0) ![8, 7, 2, 2, 2, 2, 2, 1] :=
  inv_col a1 h1 a3 x0 xr hx 6 1 (s26 c a1 h1 a3 x0 xr hx) (by rfl) (by rfl) (by rfl) (by decide)

include hx in
theorem s28 : Inv xr (kernelRun0_A.sl.HS0_28 c a1 h1 a3 x0) ![8, 8, 2, 2, 2, 2, 2, 1] :=
  inv_row a1 h1 a3 x0 xr hx 1 7 (s27 c a1 h1 a3 x0 xr hx) (by rfl) (by rfl) (by rfl) (by decide)

include hx in
theorem s29 : Inv xr (kernelRun0_A.sl.HS0_29 c a1 h1 a3 x0) ![8, 8, 2, 2, 2, 2, 2, 2] :=
  inv_col a1 h1 a3 x0 xr hx 7 1 (s28 c a1 h1 a3 x0 xr hx) (by rfl) (by rfl) (by rfl) (by decide)

include hx in
theorem s30 : Inv xr (kernelRun0_A.sl.HS0_30 c a1 h1 a3 x0) ![8, 8, 3, 2, 2, 2, 2, 2] :=
  inv_row a1 h1 a3 x0 xr hx 2 2 (s29 c a1 h1 a3 x0 xr hx) (by rfl) (by rfl) (by rfl) (by decide)

include hx in
theorem s31 : Inv xr (kernelRun0_A.sl.HS0_31 c a1 h1 a3 x0) ![8, 8, 4, 2, 2, 2, 2, 2] :=
  inv_row a1 h1 a3 x0 xr hx 2 3 (s30 c a1 h1 a3 x0 xr hx) (by rfl) (by rfl) (by rfl) (by decide)

include hx in
theorem s32 : Inv xr (kernelRun0_A.sl.HS0_32 c a1 h1 a3 x0) ![8, 8, 4, 3, 2, 2, 2, 2] :=
  inv_col a1 h1 a3 x0 xr hx 3 2 (s31 c a1 h1 a3 x0 xr hx) (by rfl) (by rfl) (by rfl) (by decide)

include hx in
theorem s33 : Inv xr (kernelRun0_A.sl.HS0_33 c a1 h1 a3 x0) ![8, 8, 5, 3, 2, 2, 2, 2] :=
  inv_row a1 h1 a3 x0 xr hx 2 4 (s32 c a1 h1 a3 x0 xr hx) (by rfl) (by rfl) (by rfl) (by decide)

include hx in
theorem s34 : Inv xr (kernelRun0_A.sl.HS0_34 c a1 h1 a3 x0) ![8, 8, 5, 3, 3, 2, 2, 2] :=
  inv_col a1 h1 a3 x0 xr hx 4 2 (s33 c a1 h1 a3 x0 xr hx) (by rfl) (by rfl) (by rfl) (by decide)

include hx in
theorem s35 : Inv xr (kernelRun0_A.sl.HS0_35 c a1 h1 a3 x0) ![8, 8, 6, 3, 3, 2, 2, 2] :=
  inv_row a1 h1 a3 x0 xr hx 2 5 (s34 c a1 h1 a3 x0 xr hx) (by rfl) (by rfl) (by rfl) (by decide)

include hx in
theorem s36 : Inv xr (kernelRun0_A.sl.HS0_36 c a1 h1 a3 x0) ![8, 8, 6, 3, 3, 3, 2, 2] :=
  inv_col a1 h1 a3 x0 xr hx 5 2 (s35 c a1 h1 a3 x0 xr hx) (by rfl) (by rfl) (by rfl) (by decide)

include hx in
theorem s37 : Inv xr (kernelRun0_A.sl.HS0_37 c a1 h1 a3 x0) ![8, 8, 7, 3, 3, 3, 2, 2] :=
  inv_row a1 h1 a3 x0 xr hx 2 6 (s36 c a1 h1 a3 x0 xr hx) (by rfl) (by rfl) (by rfl) (by decide)

include hx in
theorem s38 : Inv xr (kernelRun0_A.sl.HS0_38 c a1 h1 a3 x0) ![8, 8, 7, 3, 3, 3, 3, 2] :=
  inv_col a1 h1 a3 x0 xr hx 6 2 (s37 c a1 h1 a3 x0 xr hx) (by rfl) (by rfl) (by rfl) (by decide)

include hx in
theorem s39 : Inv xr (kernelRun0_A.sl.HS0_39 c a1 h1 a3 x0) ![8, 8, 8, 3, 3, 3, 3, 2] :=
  inv_row a1 h1 a3 x0 xr hx 2 7 (s38 c a1 h1 a3 x0 xr hx) (by rfl) (by rfl) (by rfl) (by decide)

include hx in
theorem s40 : Inv xr (kernelRun0_A.sl.HS0_40 c a1 h1 a3 x0) ![8, 8, 8, 3, 3, 3, 3, 3] :=
  inv_col a1 h1 a3 x0 xr hx 7 2 (s39 c a1 h1 a3 x0 xr hx) (by rfl) (by rfl) (by rfl) (by decide)

include hx in
theorem s41 : Inv xr (kernelRun0_A.sl.HS0_41 c a1 h1 a3 x0) ![8, 8, 8, 4, 3, 3, 3, 3] :=
  inv_row a1 h1 a3 x0 xr hx 3 3 (s40 c a1 h1 a3 x0 xr hx) (by rfl) (by rfl) (by rfl) (by decide)

include hx in
theorem s42 : Inv xr (kernelRun0_A.sl.HS0_42 c a1 h1 a3 x0) ![8, 8, 8, 5, 3, 3, 3, 3] :=
  inv_row a1 h1 a3 x0 xr hx 3 4 (s41 c a1 h1 a3 x0 xr hx) (by rfl) (by rfl) (by rfl) (by decide)

include hx in
theorem s43 : Inv xr (kernelRun0_A.sl.HS0_43 c a1 h1 a3 x0) ![8, 8, 8, 5, 4, 3, 3, 3] :=
  inv_col a1 h1 a3 x0 xr hx 4 3 (s42 c a1 h1 a3 x0 xr hx) (by rfl) (by rfl) (by rfl) (by decide)

include hx in
theorem s44 : Inv xr (kernelRun0_A.sl.HS0_44 c a1 h1 a3 x0) ![8, 8, 8, 6, 4, 3, 3, 3] :=
  inv_row a1 h1 a3 x0 xr hx 3 5 (s43 c a1 h1 a3 x0 xr hx) (by rfl) (by rfl) (by rfl) (by decide)

include hx in
theorem s45 : Inv xr (kernelRun0_A.sl.HS0_45 c a1 h1 a3 x0) ![8, 8, 8, 6, 4, 4, 3, 3] :=
  inv_col a1 h1 a3 x0 xr hx 5 3 (s44 c a1 h1 a3 x0 xr hx) (by rfl) (by rfl) (by rfl) (by decide)

include hx in
theorem s46 : Inv xr (kernelRun0_A.sl.HS0_46 c a1 h1 a3 x0) ![8, 8, 8, 7, 4, 4, 3, 3] :=
  inv_row a1 h1 a3 x0 xr hx 3 6 (s45 c a1 h1 a3 x0 xr hx) (by rfl) (by rfl) (by rfl) (by decide)

include hx in
theorem s47 : Inv xr (kernelRun0_A.sl.HS0_47 c a1 h1 a3 x0) ![8, 8, 8, 7, 4, 4, 4, 3] :=
  inv_col a1 h1 a3 x0 xr hx 6 3 (s46 c a1 h1 a3 x0 xr hx) (by rfl) (by rfl) (by rfl) (by decide)

include hx in
theorem s48 : Inv xr (kernelRun0_A.sl.HS0_48 c a1 h1 a3 x0) ![8, 8, 8, 8, 4, 4, 4, 3] :=
  inv_row a1 h1 a3 x0 xr hx 3 7 (s47 c a1 h1 a3 x0 xr hx) (by rfl) (by rfl) (by rfl) (by decide)

include hx in
theorem s49 : Inv xr (kernelRun0_A.sl.HS0_49 c a1 h1 a3 x0) ![8, 8, 8, 8, 4, 4, 4, 4] :=
  inv_col a1 h1 a3 x0 xr hx 7 3 (s48 c a1 h1 a3 x0 xr hx) (by rfl) (by rfl) (by rfl) (by decide)

include hx in
theorem s50 : Inv xr (kernelRun0_A.sl.HS0_50 c a1 h1 a3 x0) ![8, 8, 8, 8, 5, 4, 4, 4] :=
  inv_row a1 h1 a3 x0 xr hx 4 4 (s49 c a1 h1 a3 x0 xr hx) (by rfl) (by rfl) (by rfl) (by decide)

include hx in
theorem s51 : Inv xr (kernelRun0_A.sl.HS0_51 c a1 h1 a3 x0) ![8, 8, 8, 8, 6, 4, 4, 4] :=
  inv_row a1 h1 a3 x0 xr hx 4 5 (s50 c a1 h1 a3 x0 xr hx) (by rfl) (by rfl) (by rfl) (by decide)

include hx in
theorem s52 : Inv xr (kernelRun0_A.sl.HS0_52 c a1 h1 a3 x0) ![8, 8, 8, 8, 6, 5, 4, 4] :=
  inv_col a1 h1 a3 x0 xr hx 5 4 (s51 c a1 h1 a3 x0 xr hx) (by rfl) (by rfl) (by rfl) (by decide)

include hx in
theorem s53 : Inv xr (kernelRun0_A.sl.HS0_53 c a1 h1 a3 x0) ![8, 8, 8, 8, 7, 5, 4, 4] :=
  inv_row a1 h1 a3 x0 xr hx 4 6 (s52 c a1 h1 a3 x0 xr hx) (by rfl) (by rfl) (by rfl) (by decide)

include hx in
theorem s54 : Inv xr (kernelRun0_A.sl.HS0_54 c a1 h1 a3 x0) ![8, 8, 8, 8, 7, 5, 5, 4] :=
  inv_col a1 h1 a3 x0 xr hx 6 4 (s53 c a1 h1 a3 x0 xr hx) (by rfl) (by rfl) (by rfl) (by decide)

include hx in
theorem s55 : Inv xr (kernelRun0_A.sl.HS0_55 c a1 h1 a3 x0) ![8, 8, 8, 8, 8, 5, 5, 4] :=
  inv_row a1 h1 a3 x0 xr hx 4 7 (s54 c a1 h1 a3 x0 xr hx) (by rfl) (by rfl) (by rfl) (by decide)

include hx in
theorem s56 : Inv xr (kernelRun0_A.sl.HS0_56 c a1 h1 a3 x0) ![8, 8, 8, 8, 8, 5, 5, 5] :=
  inv_col a1 h1 a3 x0 xr hx 7 4 (s55 c a1 h1 a3 x0 xr hx) (by rfl) (by rfl) (by rfl) (by decide)

include hx in
theorem s57 : Inv xr (kernelRun0_A.sl.HS0_57 c a1 h1 a3 x0) ![8, 8, 8, 8, 8, 6, 5, 5] :=
  inv_row a1 h1 a3 x0 xr hx 5 5 (s56 c a1 h1 a3 x0 xr hx) (by rfl) (by rfl) (by rfl) (by decide)

include hx in
theorem s58 : Inv xr (kernelRun0_A.sl.HS0_58 c a1 h1 a3 x0) ![8, 8, 8, 8, 8, 7, 5, 5] :=
  inv_row a1 h1 a3 x0 xr hx 5 6 (s57 c a1 h1 a3 x0 xr hx) (by rfl) (by rfl) (by rfl) (by decide)

include hx in
theorem s59 : Inv xr (kernelRun0_A.sl.HS0_59 c a1 h1 a3 x0) ![8, 8, 8, 8, 8, 7, 6, 5] :=
  inv_col a1 h1 a3 x0 xr hx 6 5 (s58 c a1 h1 a3 x0 xr hx) (by rfl) (by rfl) (by rfl) (by decide)

include hx in
theorem s60 : Inv xr (kernelRun0_A.sl.HS0_60 c a1 h1 a3 x0) ![8, 8, 8, 8, 8, 8, 6, 5] :=
  inv_row a1 h1 a3 x0 xr hx 5 7 (s59 c a1 h1 a3 x0 xr hx) (by rfl) (by rfl) (by rfl) (by decide)

include hx in
theorem s61 : Inv xr (kernelRun0_A.sl.HS0_61 c a1 h1 a3 x0) ![8, 8, 8, 8, 8, 8, 6, 6] :=
  inv_col a1 h1 a3 x0 xr hx 7 5 (s60 c a1 h1 a3 x0 xr hx) (by rfl) (by rfl) (by rfl) (by decide)

include hx in
theorem s62 : Inv xr (kernelRun0_A.sl.HS0_62 c a1 h1 a3 x0) ![8, 8, 8, 8, 8, 8, 7, 6] :=
  inv_row a1 h1 a3 x0 xr hx 6 6 (s61 c a1 h1 a3 x0 xr hx) (by rfl) (by rfl) (by rfl) (by decide)

include hx in
theorem s63 : Inv xr (kernelRun0_A.sl.HS0_63 c a1 h1 a3 x0) ![8, 8, 8, 8, 8, 8, 8, 6] :=
  inv_row a1 h1 a3 x0 xr hx 6 7 (s62 c a1 h1 a3 x0 xr hx) (by rfl) (by rfl) (by rfl) (by decide)

include hx in
theorem s64 : Inv xr (kernelRun0_A.sl.HS0_64 c a1 h1 a3 x0) ![8, 8, 8, 8, 8, 8, 8, 7] :=
  inv_col a1 h1 a3 x0 xr hx 7 6 (s63 c a1 h1 a3 x0 xr hx) (by rfl) (by rfl) (by rfl) (by decide)

include hx in
theorem s65 : Inv xr (kernelRun0_A.sl.HS0_65 c a1 h1 a3 x0) ![8, 8, 8, 8, 8, 8, 8, 8] :=
  inv_row a1 h1 a3 x0 xr hx 7 7 (s64 c a1 h1 a3 x0 xr hx) (by rfl) (by rfl) (by rfl) (by decide)

end Cert.KernelIdeal.Steps

end
-- ==== Proof.BlockValue.lean ====
/-
  What one grid point leaves in the output block.

  After the last store every column group of the accumulator has met all eight groups, so the accumulator at
  `(f, n)` is the full sum `∑ i < 1024, σ(x f n − x f i)` (the eight groups of 128 columns are the 1024 columns),
  and the output block is that sum times `1/1024`, recast to a one-row stack.
-/
import proofs.«106836_j17300128268842_2_alg».proof.Proof.AccSteps
import proofs.«106836_j17300128268842_2_alg».proof.Proof.Gen.KernelIdeal.Frame

set_option maxRecDepth 16384

noncomputable section

namespace Cert.KernelIdeal.Block

open Idealize.ShloMosaic Idealize.ShloMosaic.ValueIdx
open Cert.KernelIdeal Cert.KernelIdeal.Gen Cert.KernelIdeal.Facts₀ Cert.KernelIdeal.Scratch Cert.KernelIdeal.Tile Cert.SoftRank
open Cert.KernelIdeal.Steps

/-- The soft rank of column `n` in row `f` of a one-row stack of reals. -/
def rank1 (xr : S1x8x1024.Idx → ℝ) (f : Fin 8) (n : Fin 1024) : ℝ :=
  (∑ i : Fin 1024, logis (xr (ix3 (0 : Fin 1) f n) - xr (ix3 (0 : Fin 1) f i))) * (1 / 1024)

theorem xv_fin (xr : S1x8x1024.Idx → ℝ) (f : Fin 8) (i : Fin 1024) : xv xr f i.val = xr (ix3 (0 : Fin 1) f i) := by
  unfold xv
  rw [dif_pos i.isLt]

/-- Eight groups of 128 columns are the 1024 columns. -/
theorem sum_groups (g : ℕ → ℝ) :
    ∑ U ∈ Finset.range 8, ∑ q : Fin 128, g (128 * U + q.val) = ∑ i : Fin 1024, g i.val := by
  rw [Finset.sum_range (fun U => ∑ q : Fin 128, g (128 * U + q.val)),
    ← Fintype.sum_prod_type' (f := fun (U : Fin 8) (q : Fin 128) => g (128 * U.val + q.val))]
  exact Fintype.sum_equiv finProdFinEquiv _ (fun i : Fin (8 * 128) => g i.val) (fun x => by
    show g (128 * x.1.val + x.2.val) = g (x.2.val + 128 * x.1.val)
    rw [Nat.add_comm])

theorem all8 (T : Fin 8) : (![8, 8, 8, 8, 8, 8, 8, 8] : Fin 8 → ℕ) T = 8 := by fin_cases T <;> rfl

theorem hz3 : (![0, 0, 0] : Fin 3 → ℕ) = fun _ => 0 := funext fun a => by fin_cases a <;> rfl

/-- The output block the body leaves, at `(0, f, n)`: the soft rank of the input block's row `f` at column `n`. -/
theorem out_block (c : Dev nD) (i : grid0.Coords) (a1 : Memref sig .tc .vmem S1x8x1024 .f32) (h1 : a1.IsWhole)
    (a2 : Memref sig .tc .vmem S1x8x1024 .f32) (h2 : a2.IsWhole) (a3 : Memref sig .tc .vmem S8x1024 .f32) (h3 : a3.IsWhole)
    (x0 : Vec Ideal S1x8x1024 .f32) (xr : S1x8x1024.Idx → ℝ) (hx : ∀ i, x0 i = ((xr i : ℝ) : EReal))
    (u : Fin 1) (f : Fin 8) (n : Fin 1024) :
    out0_A_1 (F := Ideal) c i a1 h1 a2 h2 a3 h3 x0 (ix3 u f n) = ((rank1 xr f n : ℝ) : EReal) := by
  unfold out0_A_1
  rw [View.read_writes_eq_canon _ _ _ (cover0_A_1 c i a1 h1 a2 h2 a3 h3 x0)]
  unfold kernelRun0_A
  dsimp only
  rw [View.canon_unit_zero hz3]
  unfold kernelRun0_A.sl.r_34 kernelRun0_A.sl.v920
  rw [scaled_apply, View.readCov_eq_canon']
  have hn := n.isLt
  have e : (Rect.unit (s := S8x1024) ![0, 0] S8x1024.size Facts₀.inb_S8x1024_S8x1024_0_0).toLoadRect.idx (ix2 f n)
      = ix2 f (⟨128 * (n.val / 128) + n.val % 128, by omega⟩ : Fin 1024) := by
    funext a
    apply Fin.ext
    match a with
    | ⟨0, _⟩ => show 0 + 1 * f.val = f.val; omega
    | ⟨1, _⟩ => show 0 + 1 * n.val = 128 * (n.val / 128) + n.val % 128; omega
  beta_reduce
  rw [e, s65 c a1 h1 a3 x0 xr hx ⟨n.val / 128, by omega⟩ f ⟨n.val % 128, Nat.mod_lt _ (by norm_num)⟩, all8,
    ofBits_inv1024, ← EReal.coe_mul]
  unfold part rank1
  rw [sum_groups (fun k => logis (xv xr f (128 * (n.val / 128) + n.val % 128) - xv xr f k))]
  have en : 128 * (n.val / 128) + n.val % 128 = n.val := by omega
  simp only [en, xv_fin]

end Cert.KernelIdeal.Block

end
-- ==== Proof.RankSpec.lean ====
/-
  The soft rank of a whole `[16, 1024, 8]` array of reals: entry `(b, n, f)` is
  `(1/1024) · ∑ i < 1024, σ(X b n f − X b i f)` — each batch `b` and feature `f` ranks its own 1024 entries.
-/
import proofs.«106836_j17300128268842_2_alg».proof.Proof.SoftRankSpec
import Idealize.ShloMosaic.Lib.ValueIdx

noncomputable section

namespace Cert.SoftRank

open Idealize.ShloMosaic Idealize.ShloMosaic.ValueIdx

/-- The soft rank of entry `(b, n, f)`. -/
def softRank (Xr : (⟨3, ![16, 1024, 8]⟩ : Shape).Idx → ℝ) (b : Fin 16) (n : Fin 1024) (f : Fin 8) : ℝ :=
  (∑ i : Fin 1024, logis (Xr (ix3 b n f) - Xr (ix3 b i f))) * (1 / 1024)

/-- The whole result array, on the extended reals. -/
def rankArray (Xr : (⟨3, ![16, 1024, 8]⟩ : Shape).Idx → ℝ) : (⟨3, ![16, 1024, 8]⟩ : Shape).Idx → EReal :=
  fun i => ((softRank Xr (i 0) (i 1) (i 2) : ℝ) : EReal)

theorem rankArray_apply (Xr : (⟨3, ![16, 1024, 8]⟩ : Shape).Idx → ℝ) (b : Fin 16) (n : Fin 1024) (f : Fin 8) :
    rankArray Xr (ix3 b n f) = ((softRank Xr b n f : ℝ) : EReal) := rfl

end Cert.SoftRank

end
-- ==== Proof.KernelValue.lean ====
/-
  The kernel's result array.

  The region works on the transposed array `xt[b, f, n] = x[b, n, f]`; grid point `b` stages block `(b, 0, 0)`
  — the whole `[8, 1024]` slab of batch `b` — computes the soft rank of each of its rows, and writes the slab
  back to block `(b, 0, 0)` of the output. The sixteen blocks cover the output, so the output array at `(b, f, n)`
  is the soft rank of `x` at `(b, n, f)`; the transpose after the region puts it at `(b, n, f)`.
-/
import proofs.«106836_j17300128268842_2_alg».proof.Proof.BlockValue
import proofs.«106836_j17300128268842_2_alg».proof.Proof.RankSpec
import proofs.«106836_j17300128268842_2_alg».proof.Proof.Gen.KernelIdeal.Frame
import Idealize.ShloMosaic.Lib.Pipeline.Value
import Idealize.ShloMosaic.Lib.StableHlo.Run
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.RankValue

open Idealize.ShloMosaic.ValueIdx
open Cert.KernelIdeal Cert.KernelIdeal.Gen Cert.KernelIdeal.Block Cert.SoftRank

variable (m : (ℓ : Loc nD τ sig) → Buf (Elt Ideal) ℓ) (ρ : Dev nD → PrngReg)

/-- The transposed input the region finds: `xt[b, f, n] = x[b, n, f]`. -/
theorem V_v0 (c : Dev nD) :
    (V m c main_v0 : S16x8x1024.Idx → EReal)
      = transpose S16x8x1024 [0, 2, 1] (m ((c : Thread nD τ).loc main_arg0)) transposes_S16x1024x8_S16x8x1024_0_2_1 := by
  show StableHlo.after hostOps0 (fun b => m (c, b)) (Proc.devRef .tc main_v0) = _
  after_results

theorem t_lt (t : Fin cfg0.N) : t.val < 16 := Nat.lt_of_lt_of_eq t.isLt N_0

/-- The printed index maps over the grid: point `t` stages and writes back block `(t, 0, 0)`. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- The transposed soft-rank array the region's output ends holding. -/
def rankT (Xr : S16x1024x8.Idx → ℝ) : S16x8x1024.Idx → EReal :=
  fun i => ((softRank Xr (i 0) (i 2) (i 1) : ℝ) : EReal)

variable (Xr : S16x1024x8.Idx → ℝ)

/-- The input block at point `t`, at `(0, f, n)`: the input at `(t, n, f)`. -/
theorem iblk_apply (c : Dev nD) (hX : ∀ i, (m ((c : Thread nD τ).loc main_arg0) : S16x1024x8.Idx → EReal) i = ((Xr i : ℝ) : EReal))
    (t : Fin cfg0.N) (u : Fin 1) (f : Fin 8) (n : Fin 1024) :
    iblk m c 0 t (ix3 u f n) = ((Xr (ix3 (⟨t.val, t_lt t⟩ : Fin 16) n f) : ℝ) : EReal) := by
  have ht : t.val < 16 := t_lt t
  obtain ⟨e0, e1, e2, -, -, -⟩ := idx_facts t
  show V m c main_v0 (((cfg0.win 0).blk t).view.emb (ix3 u f n)) = _
  have hy : ((cfg0.win 0).blk t).view.emb (ix3 u f n) = ix3 (⟨t.val, ht⟩ : Fin 16) f n := by
    funext a
    apply Fin.ext
    match a with
    | ⟨0, _⟩ =>
      show win0_0.index t (0 : Fin 3) * 1 + 1 * u.val = t.val
      have h0 : u.val < 1 := u.isLt
      omega
    | ⟨1, _⟩ =>
      show win0_0.index t (1 : Fin 3) * 8 + 1 * f.val = f.val
      omega
    | ⟨2, _⟩ =>
      show win0_0.index t (2 : Fin 3) * 1024 + 1 * n.val = n.val
      omega
  rw [hy, V_v0]
  exact (transpose_ix3_021_apply _ _ (⟨t.val, ht⟩ : Fin 16) f n).trans (hX _)

/-- The reals of batch `b`, laid out as the block the region stages: `(0, f, n) ↦ X (b, n, f)`. -/
def blockReals (b : Fin 16) : S1x8x1024.Idx → ℝ :=
  fun y => Xr (ix3 b (⟨(y 2).val, (y 2).isLt⟩ : Fin 1024) (⟨(y 1).val, (y 1).isLt⟩ : Fin 8))

theorem iblk_reals (c : Dev nD) (hX : ∀ i, (m ((c : Thread nD τ).loc main_arg0) : S16x1024x8.Idx → EReal) i = ((Xr i : ℝ) : EReal))
    (t : Fin cfg0.N) (y : S1x8x1024.Idx) :
    iblk m c 0 t y = ((blockReals Xr (⟨t.val, t_lt t⟩ : Fin 16) y : ℝ) : EReal) := by
  obtain ⟨u, f, n, rfl⟩ : ∃ (u : Fin 1) (f : Fin 8) (n : Fin 1024), y = ix3 u f n := ⟨y 0, y 1, y 2, eq_ix3 y⟩
  exact iblk_apply m Xr c hX t u f n

/-- What grid point `t` writes back is block `t` of the transposed soft-rank array. -/
theorem flushed_eq (c : Dev nD) (hX : ∀ i, (m ((c : Thread nD τ).loc main_arg0) : S16x1024x8.Idx → EReal) i = ((Xr i : ℝ) : EReal))
    (t : Fin cfg0.N) :
    (dats m 0 c).flushed 1 t = ((cfg0.win 1).blk t).view.read (Elt Ideal) (rankT Xr) := by
  have ht : t.val < 16 := t_lt t
  obtain ⟨-, -, -, e0, e1, e2⟩ := idx_facts t
  show (cfg0.win 1).cut (grid0.coords t) ((dats m 0 c).after 1 t) = _
  rw [after0_1]
  unfold outsAt0
  funext y
  obtain ⟨u, f, n, rfl⟩ : ∃ (u : Fin 1) (f : Fin 8) (n : Fin 1024), y = ix3 u f n := ⟨y 0, y 1, y 2, eq_ix3 y⟩
  show out0_A_1 c (grid0.coords t) (ms0_0 t) (hs0_0 t) (ms0_1 t) (hs0_1 t) scM0_0 (Memref.isWhole_whole _) (iblk m c 0 t) (ix3 u f n)
    = rankT Xr (((cfg0.win 1).blk t).view.emb (ix3 u f n))
  have hy : ((cfg0.win 1).blk t).view.emb (ix3 u f n) = ix3 (⟨t.val, ht⟩ : Fin 16) f n := by
    funext a
    apply Fin.ext
    match a with
    | ⟨0, _⟩ =>
      show win0_1.index t (0 : Fin 3) * 1 + 1 * u.val = t.val
      have h0 : u.val < 1 := u.isLt
      omega
    | ⟨1, _⟩ =>
      show win0_1.index t (1 : Fin 3) * 8 + 1 * f.val = f.val
      omega
    | ⟨2, _⟩ =>
      show win0_1.index t (2 : Fin 3) * 1024 + 1 * n.val = n.val
      omega
  rw [hy, out_block c _ _ _ _ _ _ _ (iblk m c 0 t) (blockReals Xr (⟨t.val, t_lt t⟩ : Fin 16))
    (fun y => iblk_reals m Xr c hX t y) u f n]
  rfl

/-- An index of the output is in point `t`'s block iff each coordinate is in the block's range on its axis. -/
theorem mem_blk (t : Fin cfg0.N) (i : S16x8x1024.Idx) :
    i ∈ ((cfg0.win 1).blk t).view.set ↔ ∀ a : Fin 3, win0_1.index t a * S1x8x1024.size a ≤ (i a).val
      ∧ (i a).val < win0_1.index t a * S1x8x1024.size a + S1x8x1024.size a := by
  show i ∈ ((View.whole main_v1).slice (win0_1.rect t)).set ↔ _
  rw [View.set_slice_whole, Rect.mem_set_unit]
  exact Iff.rfl

/-- Every index of the output is in the block of the point named by its batch coordinate. -/
theorem cover (i : S16x8x1024.Idx) : ∃ t : Fin cfg0.N, (cfg0.win 1).flush t = true ∧ i ∈ ((cfg0.win 1).blk t).view.set := by
  have hi0 : (i 0).val < 16 := (i 0).isLt
  have hi1 : (i 1).val < 8 := (i 1).isLt
  have hi2 : (i 2).val < 1024 := (i 2).isLt
  refine ⟨⟨(i 0).val, Nat.lt_of_lt_of_eq hi0 N_0.symm⟩, flush0_1 _, ?_⟩
  obtain ⟨-, -, -, e0, e1, e2⟩ := idx_facts ⟨(i 0).val, Nat.lt_of_lt_of_eq hi0 N_0.symm⟩
  rw [mem_blk]
  intro a
  match a with
  | ⟨0, _⟩ =>
    show win0_1.index _ (0 : Fin 3) * 1 ≤ (i 0).val ∧ (i 0).val < win0_1.index _ (0 : Fin 3) * 1 + 1
    rw [e0]; show (i 0).val * 1 ≤ (i 0).val ∧ (i 0).val < (i 0).val * 1 + 1; omega
  | ⟨1, _⟩ =>
    show win0_1.index _ (1 : Fin 3) * 8 ≤ (i 1).val ∧ (i 1).val < win0_1.index _ (1 : Fin 3) * 8 + 8
    rw [e1]; omega
  | ⟨2, _⟩ =>
    show win0_1.index _ (2 : Fin 3) * 1024 ≤ (i 2).val ∧ (i 2).val < win0_1.index _ (2 : Fin 3) * 1024 + 1024
    rw [e2]; omega

/-- After the region the output array is the transposed soft-rank array: the sixteen written blocks cover it. -/
theorem final (c : Dev nD) (hX : ∀ i, (m ((c : Thread nD τ).loc main_arg0) : S16x1024x8.Idx → EReal) i = ((Xr i : ℝ) : EReal)) :
    (dats m 0 c).arrAt 1 cfg0.N = rankT Xr :=
  (dats m 0 c).arrAt_eq_of_cover 1 (rankT Xr) (fun t _ => flushed_eq m Xr c hX t) (cover)

/-- The transpose after the region: the result array is the soft-rank array. -/
theorem tail_eq (c : Dev nD) (hX : ∀ i, (m ((c : Thread nD τ).loc main_arg0) : S16x1024x8.Idx → EReal) i = ((Xr i : ℝ) : EReal)) :
    Pipeline.afterTail₀ cfgs (dats m) 0 (V0 m) [hostOps1] c main_v2 = rankArray Xr := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = rankT Xr :=
    (Pipeline.withArrays_arr spec0 launch0.win.arr_inj c _ _ 1).trans (final m Xr c hX)
  rw [hw]
  funext i
  obtain ⟨b, n, f, rfl⟩ : ∃ (b : Fin 16) (n : Fin 1024) (f : Fin 8), i = ix3 b n f := ⟨i 0, i 1, i 2, eq_ix3 i⟩
  exact transpose_ix3_021_apply (rankT Xr) _ b n f

/-- Every weakly fair execution of the kernel's program terminates with the result array at the soft-rank array of
    the input's reals, and with the input unchanged. -/
theorem run (Xs : Dev nD → S16x1024x8.Idx → ℝ)
    (hX : ∀ c i, (m ((c : Thread nD τ).loc main_arg0) : S16x1024x8.Idx → EReal) i = ((Xs c i : ℝ) : EReal)) :
    θ_run defs (onTc (τ := τ) (main (F := Ideal))) ⟨m, fun _ => 0, ρ⟩ fun r => ∀ c : Dev nD,
      r.2.mem ((c : Thread nD τ).loc main_v2) = rankArray (Xs c)
      ∧ r.2.mem ((c : Thread nD τ).loc main_arg0) = m ((c : Thread nD τ).loc main_arg0) :=
  (θ_run defs _ _).mono (fun _ h c =>
      ⟨((h c).2 main_v2 (Pipeline.mem_restRefs_of main_v2 (by decide) (by decide))).trans (tail_eq m (Xs c) c (hX c)),
        ((h c).2 main_arg0 (Pipeline.mem_restRefs_of main_arg0 (by decide) (by decide))).trans (W_main_arg0 m (dats m) c)⟩)
    (run_main m ρ)

end Cert.KernelIdeal.RankValue

end
-- ==== Proof.RefValue.lean ====
/-
  The reference's result array is the soft-rank array.

  Entry `(b, n, f)` of the reference is `(0 + ∑ k < 1024, 1 / (1 + e^(−(1000·(x b n f − x b k f))))) / 1024`: the
  two broadcasts read `x` at `(b, n, f)` and at `(b, k, f)`, the sum runs over the inserted axis `k`, and at real
  entries the quotient by 1024 is the product with `1/1024`.
-/
import proofs.«106836_j17300128268842_2_alg».proof.Proof.Gen.ReferenceIdeal.Read
import proofs.«106836_j17300128268842_2_alg».proof.Proof.RankSpec
import Idealize.ShloMosaic.Lib.ValueIdx

noncomputable section

namespace Cert.ReferenceIdeal.RankRef

open Idealize.ShloMosaic Idealize.ShloMosaic.ValueIdx
open Cert.ReferenceIdeal Cert.ReferenceIdeal.Gen Cert.ReferenceIdeal.Read Cert.SoftRank

/-- One summand of the reference at `(b, n, f)`: the logistic spelling of `x (b, n, f)` against `x (b, k, f)`. -/
theorem summand (x0 : (⟨S16x1024x8, .f32⟩ : BufTy).Contents (Elt Ideal)) (b : Fin 16) (n : Fin 1024) (f : Fin 8) (k : Fin 1024) :
    val_main_v12 (F := Ideal) x0 (idx_main_v13 (ix3 b n f) k) = expForm (x0 (ix3 b n f)) (x0 (ix3 b k f)) := by
  have ej : idx_main_v0 (idx_main_v2 (idx_main_v13 (ix3 b n f) k)) = ix3 b n f :=
    funext fun a => Fin.ext (by match a with | ⟨0, _⟩ => rfl | ⟨1, _⟩ => rfl | ⟨2, _⟩ => rfl)
  have ei : idx_main_v1 (idx_main_v3 (idx_main_v13 (ix3 b n f) k)) = ix3 b k f :=
    funext fun a => Fin.ext (by match a with | ⟨0, _⟩ => rfl | ⟨1, _⟩ => rfl | ⟨2, _⟩ => rfl)
  rw [val_main_v12_apply, val_main_v11_apply, val_main_cst_1_apply, val_main_v10_apply, val_main_v9_apply,
    val_main_cst_0_apply, val_main_v8_apply, val_main_v7_apply, val_main_v6_apply, val_main_v5_apply, val_main_cst_apply,
    val_main_v4_apply, val_main_v2_apply, val_main_v3_apply, val_main_v0_apply, val_main_v1_apply, ej, ei]
  rfl

/-- The reference's result, at real entries, is the soft-rank array. -/
theorem ref_eq (x0 : (⟨S16x1024x8, .f32⟩ : BufTy).Contents (Elt Ideal)) (Xr : S16x1024x8.Idx → ℝ)
    (hX : ∀ i, x0 i = ((Xr i : ℝ) : EReal)) : val_main_v15 (F := Ideal) x0 = rankArray Xr := by
  funext i
  obtain ⟨b, n, f, rfl⟩ : ∃ (b : Fin 16) (n : Fin 1024) (f : Fin 8), i = ix3 b n f := ⟨i 0, i 1, i 2, eq_ix3 i⟩
  rw [val_main_v15_apply, val_main_v13_apply, val_main_v14_apply, val_main_cst_3_apply, val_main_cst_2_apply,
    Finset.sum_congr rfl fun k _ => summand x0 b n f k]
  simp only [hX, expForm_coe]
  rw [← coe_sum, Ideal.hostDivf_def, Ideal.ofBits_def, Ideal.ofBits_def, Ideal.ofBits_zero_f32, zero_add, ofBits_1024,
    Ideal.div_coe (by norm_num : (1024 : ℝ) ≠ 0), ← EReal.coe_mul, rankArray_apply]
  rfl

end Cert.ReferenceIdeal.RankRef

end
-- ==== Proof.FiniteInputs.lean ====
/-
  The precondition read: every entry of the input is a real number.

  The precondition is `all(|x| < +∞)`: a reduction by `and` that is 1 had a 1 at every index, and an extended real
  whose absolute value is below `+∞` is neither infinity.
-/
import proofs.«106836_j17300128268842_2_alg».proof.Pre_finite_inputs
import proofs.«106836_j17300128268842_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal

noncomputable section

namespace Cert.Pre_finite_inputs.Finite

open Idealize.ShloMosaic Cert.Pre_finite_inputs Cert.Pre_finite_inputs.Gen

instance : Subsingleton S_.Idx := ⟨fun a b => funext fun d => d.elim0⟩

theorem ofBits_inf : Ideal.ofBits .f32 0x7F800000#32 = (⊤ : EReal) := by simp [Ideal.ofBits, Ideal.ieee]

/-- An extended real whose absolute value compares below `+∞` is a real. -/
theorem real_of_abs_lt_top (x : EReal) (h : Ideal.cmp .olt (max x (-x)) (⊤ : EReal) = 1#1) : ∃ r : ℝ, x = (r : EReal) := by
  induction x using EReal.rec with
  | bot => exfalso; simp [Ideal.cmp] at h
  | coe r => exact ⟨r, rfl⟩
  | top => exfalso; simp [Ideal.cmp] at h

/-- Under the precondition every entry is a real. -/
theorem entry_real (X : FVec Ideal S16x1024x8 .f32) (h : fn (F := Ideal) X = fun _ => 1#1) (i : S16x1024x8.Idx) :
    ∃ r : ℝ, X i = (r : EReal) := by
  have h0 := congrFun h ValueIdx.ix0
  dsimp only [fn] at h0
  have hi := Host.reduce_andi_all _ _ _ _ _ h0 i
  have hb : broadcastInDim S16x1024x8 ![] Facts.bcast_S_S16x1024x8 (constant (F := Ideal) S_ .f32 0x7F800000#32) i
      = Ideal.ofBits .f32 0x7F800000#32 :=
    broadcastInDim_apply _ Facts.bcast_S_S16x1024x8 _ i (fun a => a.elim0) (fun a => a.elim0)
  have hc : Ideal.cmp .olt (max (X i) (-(X i))) (⊤ : EReal) = 1#1 := by
    rw [← ofBits_inf, ← hb]
    exact hi
  exact real_of_abs_lt_top (X i) hc

/-- So the input is the coercion of an array of reals. -/
theorem exists_reals (X : FVec Ideal S16x1024x8 .f32) (h : fn (F := Ideal) X = fun _ => 1#1) :
    ∃ Xr : S16x1024x8.Idx → ℝ, ∀ i, X i = ((Xr i : ℝ) : EReal) :=
  ⟨fun i => (entry_real X h i).choose, fun i => (entry_real X h i).choose_spec⟩

end Cert.Pre_finite_inputs.Finite

end
-- ==== Proof.lean ====
/-
  The soft rank `out[b, j, f] = (1/1024) · ∑ i, σ(1000·(x[b, j, f] − x[b, i, f]))` computed two ways.

  The reference forms all pairwise differences of a batch, applies the logistic `1 / (1 + e^(−z))` and sums over `i`,
  then divides by 1024. The kernel works on the transposed array, one batch per grid point; it spells the logistic as
  `½·tanh(z/2) + ½`, cuts the 1024 columns into eight groups of 128, computes each tile of pairwise values (group `j`
  against group `i ≥ j`) once and adds its row sums to group `j`'s accumulator and, for `i > j`, its column sums
  complemented from 128 to group `i`'s accumulator (because `1 − σ(d) = σ(−d)`), and finally multiplies by `1/1024`.

  At real inputs (the precondition) both are the same real number at every index: the two spellings of the logistic
  agree, the complemented column sums are the sums of the opposite differences, the eight groups are the 1024 columns,
  and division by 1024 is multiplication by `1/1024`. The complement trick and the two spellings need finiteness, so
  the precondition is used: every entry of `x` is a real.

  The modules: SoftRankSpec and RankSpec (the mathematics), LibPairLayout and TileOps (the vector steps at an
  index), ScratchInv and AccSteps (the accumulator store by store), BlockValue (one grid point's output block),
  KernelValue (the kernel's result array), RefValue (the reference's), FiniteInputs (the precondition read).
-/
import proofs.«106836_j17300128268842_2_alg».proof.Defs
import proofs.«106836_j17300128268842_2_alg».proof.Proof.Gen.Kernel
import proofs.«106836_j17300128268842_2_alg».proof.Proof.Gen.Kernel.Skeleton
import proofs.«106836_j17300128268842_2_alg».proof.Proof.Gen.Kernel.Launch
import proofs.«106836_j17300128268842_2_alg».proof.Proof.Gen.Kernel.Points
import proofs.«106836_j17300128268842_2_alg».proof.Proof.Gen.Kernel.Frame
import proofs.«106836_j17300128268842_2_alg».proof.Proof.Gen.KernelIdeal
import proofs.«106836_j17300128268842_2_alg».proof.Proof.Gen.KernelIdeal.Skeleton
import proofs.«106836_j17300128268842_2_alg».proof.Proof.Gen.KernelIdeal.Launch
import proofs.«106836_j17300128268842_2_alg».proof.Proof.Gen.KernelIdeal.Points
import proofs.«106836_j17300128268842_2_alg».proof.Proof.Gen.KernelIdeal.Frame
import proofs.«106836_j17300128268842_2_alg».proof.Proof.Gen.ReferenceIdeal
import proofs.«106836_j17300128268842_2_alg».proof.Proof.Gen.Pre_finite_inputs
import proofs.«106836_j17300128268842_2_alg».proof.Proof.Gen.ReferenceIdeal.Run
import proofs.«106836_j17300128268842_2_alg».proof.Proof.Gen.ReferenceIdeal.Read
import proofs.«106836_j17300128268842_2_alg».proof.Proof.KernelValue
import proofs.«106836_j17300128268842_2_alg».proof.Proof.RefValue
import proofs.«106836_j17300128268842_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Under the precondition the input of every device is an array of reals; the kernel's result array and the
    reference's are then both the soft-rank array of those reals. -/
theorem algebraic : Cert.algebraic_KernelIdeal_ReferenceIdeal := by
  intro m ρ m' ρ' hpre hagree
  have hreal : ∀ c : Dev Cert.KernelIdeal.nD, ∃ Xr : Cert.KernelIdeal.S16x1024x8.Idx → ℝ,
      ∀ i, (m ((c.tc : Thread Cert.KernelIdeal.nD Cert.KernelIdeal.τ).loc Cert.KernelIdeal.main_arg0) : Cert.KernelIdeal.S16x1024x8.Idx → EReal) i
        = ((Xr i : ℝ) : EReal) :=
    fun c => Cert.Pre_finite_inputs.Finite.exists_reals _ (hpre c)
  choose Xs hXs using hreal
  refine ⟨fun c => Cert.SoftRank.rankArray (Xs c), Cert.KernelIdeal.RankValue.run m ρ Xs hXs, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq]
  exact Cert.ReferenceIdeal.RankRef.ref_eq _ (Xs c) (fun i => by rw [hagree c]; exact hXs c i)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
